-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩

abbrev nBuf : Space → Nat
  | .hbm => 59
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S_, .f32⟩
  | .hbm, ⟨54, _⟩ => ⟨S50000x128, .f32⟩
  | .hbm, ⟨55, _⟩ => ⟨S850000x1, .i32⟩
  | .hbm, ⟨56, _⟩ => ⟨S50000x128, .f32⟩
  | .hbm, ⟨57, _⟩ => ⟨S1x128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x128, .f32⟩
  | .hbm, ⟨98, _⟩ => ⟨S850000x1, .f32⟩
  | .hbm, ⟨99, _⟩ => ⟨S850000x128, .f32⟩
  | .hbm, ⟨100, _⟩ => ⟨S850000x128, .f32⟩
  | .hbm, ⟨101, _⟩ => ⟨S_, .f32⟩
  | .hbm, ⟨102, _⟩ => ⟨S50000x128, .f32⟩
  | .hbm, ⟨103, _⟩ => ⟨S850000x1, .i32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S50000x128, .f32⟩
  | .hbm, ⟨110, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KerRun.lean ====
/-
  The kernel program's run with its result NAMED.

  The program is eight segments: host operations, the first pallas_call, host operations (a gather and a
  scatter-add), the second pallas_call, host operations again, the third pallas_call.  The frame's fold `Gen.W8`
  gives every unscoped buffer's contents after the last segment; the frame theorem reads the six arguments out of it.
  Here the same run is read at one more buffer, the result `main_v40`: it ends at `Gen.W8 m ρ c main_v40`, the third
  pipeline's written-back array.
-/
import proofs.«130294_j67164698575202_2_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, its result buffer at the fold's
    contents after the last segment and its six arguments as launched. -/
theorem run_named : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KVal

end
-- ==== Proof.LibLayout.lean ====
/-
  Layout facts read at an index, over literal rank-2 shapes: a plain matrix product's contraction as a sum over
  the shared axis, and a column `[a, 1]` broadcast along the rows of `[a, b]`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx

/-- The contraction of a plain `[M, K] × [K, N]` product at `(p, q)`: the sum over the shared axis of
    `l (p, k) · r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun i _ => ?_
  have hv := contrEquiv1_symm_val (DotDims.plain M K N) K rfl rfl i
  have el : (DotDims.plain M K N).lhsIdx (ix2 p q) ((contrEquiv1 (DotDims.plain M K N) K rfl rfl).symm i) = ix2 p i := by
    funext a; refine Fin.ext ?_
    match a with
    | ⟨0, _⟩ => rfl
    | ⟨1, _⟩ => exact hv
  have er : (DotDims.plain M K N).rhsIdx (ix2 p q) ((contrEquiv1 (DotDims.plain M K N) K rfl rfl).symm i) = ix2 i q := by
    funext a; refine Fin.ext ?_
    match a with
    | ⟨0, _⟩ => exact hv
    | ⟨1, _⟩ => rfl
  rw [el, er]

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn

end
-- ==== Proof.LibRowsIndex.lean ====
/-
  A gather of rows and a scatter onto rows, read at an index.

  `x[idx]` along axis 0 lowers to a gather whose start indices are a column `[E, 1]`: result row `e` is the operand's
  row `gRow idx e` — the start index `idx (e, 0)` read as a signed integer and clamped into `[0, N − 1]`.  A flat
  operand `[N]` and a matrix operand `[N, C]` (whole rows, the column kept) read the SAME row.
  A scatter of rows with the same column of indices lands update `(e, ·)` on operand row `idx (e, 0)`, read signed
  and NOT clamped: an update whose row is outside `[0, N)` is dropped.  So an update that lands on row `n` has
  `idx (e, 0) = n` exactly.
-/
import Idealize.ShloMosaic.PureOps.Ideal
import Idealize.ShloMosaic.Lib.ValueIdx
import Idealize.ShloMosaic.Lib.Pipeline.Value

noncomputable section

namespace Cert.Gcn

open Idealize.ShloMosaic Idealize.ShloMosaic.ValueIdx

variable {α : Type}

/-- The operand row a start index names: read signed, clamped into `[0, N − 1]`. -/
def gRow (N : Nat) (hN : 0 < N) {E w : Nat} (idx : IVec ⟨2, ![E, 1]⟩ w) (e : Fin E) : Fin N :=
  ⟨min (idx (ix2 e (0 : Fin 1))).toInt.toNat (N - 1), by omega⟩

/-- A gather of whole rows of `[N, C]` at a column of start indices `[E, 1]`. -/
abbrev rowsDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gather of elements of `[N]` at a column of start indices `[E, 1]`. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather at `(e, j)`: the operand at row `gRow idx e`, column `j`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N C E wf) x idx (ix2 e j) = x (ix2 (gRow N hN idx e) j) := by
  have c0 : (rowsDims N C E wf).start (ix2 e j) idx (0 : Fin 2) + (rowsDims N C E wf).batchCoord (ix2 e j) (0 : Fin 2)
      + (rowsDims N C E wf).offCoord (ix2 e j) (0 : Fin 2) = (gRow N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e j) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have c1 : (rowsDims N C E wf).start (ix2 e j) idx (1 : Fin 2) + (rowsDims N C E wf).batchCoord (ix2 e j) (1 : Fin 2)
      + (rowsDims N C E wf).offCoord (ix2 e j) (1 : Fin 2) = j.val := by
    rw [GatherDims.batchCoord_eq_zero _ _ _ List.not_mem_nil]
    unfold GatherDims.start
    rw [dif_neg (show (1 : Fin 2) ∉ ([0] : List (Fin 2)) from by decide)]
    simp only [Nat.zero_add, Nat.add_zero]
    unfold GatherDims.offCoord
    rw [dif_pos ((GatherDims.mem_sKept _ _).mpr ⟨(show (1 : Fin 2) ∉ ([0] : List (Fin 2)) from by decide), List.not_mem_nil⟩)]
    rfl
  unfold Host.gather
  congr 1
  funext a
  refine Fin.ext ?_
  show (rowsDims N C E wf).start (ix2 e j) idx a + (rowsDims N C E wf).batchCoord (ix2 e j) a + (rowsDims N C E wf).offCoord (ix2 e j) a = _
  match a with
  | ⟨0, _⟩ => exact c0
  | ⟨1, _⟩ => exact c1

/-- The flat gather at `e`: the operand at `gRow idx e`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (gRow N hN idx e)) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A scatter of whole rows onto `[N, C]` at a column of scatter indices `[E, 1]`. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on operand index `i` has its scatter index equal to `i`'s row, as integers. -/
theorem scatter_rows_land {N C E w : Nat} (wf : ScatterDims.WF ⟨2, ![N, C]⟩ ⟨2, ![E, 1]⟩ ⟨2, ![E, C]⟩ [1] [0] [0] 1)
    (idx : IVec ⟨2, ![E, 1]⟩ w) (J : (⟨2, ![E, C]⟩ : Shape).Idx) (i : (⟨2, ![N, C]⟩ : Shape).Idx)
    (h : (rowsScatter N C E wf).resultIdx? J idx = some i) :
    (idx (ix2 (J 0 : Fin E) (0 : Fin 1))).toInt = ((i 0).val : Int) := by
  have hs : (rowsScatter N C E wf).start J idx (0 : Fin 2) = (idx (ix2 (J 0 : Fin E) (0 : Fin 1))).toInt := by
    unfold ScatterDims.start
    rw [dif_pos (show (0 : Fin 2) ∈ (rowsScatter N C E wf).scatterDimsToOperandDims from List.mem_singleton.mpr rfl)]
    have hsi : (rowsScatter N C E wf).siIdx J ⟨List.idxOf (0 : Fin 2) (rowsScatter N C E wf).scatterDimsToOperandDims,
        List.idxOf_lt_length_iff.2 (List.mem_singleton.mpr rfl)⟩ = ix2 (J 0 : Fin E) (0 : Fin 1) := by
      funext b; refine Fin.ext ?_
      match b with
      | ⟨0, _⟩ => rfl
      | ⟨1, _⟩ => rfl
    rw [hsi]
    rfl
  have hw : (rowsScatter N C E wf).window J (0 : Fin 2) = 0 := by
    unfold ScatterDims.window
    rw [dif_neg (fun hm => by
      have := (List.mem_filter.mp hm).2
      simp at this)]
  unfold ScatterDims.resultIdx? at h
  split at h
  · rename_i hc
    have h0 := hc (0 : Fin 2)
    rw [hs, hw] at h0
    have hv : ((rowsScatter N C E wf).start J idx (0 : Fin 2) + (((rowsScatter N C E wf).window J (0 : Fin 2) : Nat) : Int)).toNat = (i 0).val :=
      congrArg Fin.val (congrFun (Option.some.inj h) (0 : Fin 2))
    rw [hs, hw] at hv
    omega
  · exact absurd h (by simp)

end Cert.Gcn

end
-- ==== Proof.Spec.lean ====
/-
  The two programs as pure functions of the argument arrays, at the extended reals.

  Both programs build the same self-loop-augmented edge list from `edge_index` (`srcOf`, `dstOf`: 800000 edges, then
  one loop per node), the same in-degree by a scatter-add of ones (`degOf`) and the same inverse square-root degree
  `disOf` (`1/√deg` where `0 < deg`, else `0`).  They differ in where the symmetric normalisation is applied.

  The reference layer `layerR`: `h = X·W`; each edge's message is `h[src e] · (dis[src e] · dis[dst e])`; messages
  are scatter-added onto their destination rows; the bias is added.
  The kernel layer: `G0` scales row `n` of `X·W` by `dis n` BEFORE the edges are walked; `aggK` gathers the scaled
  rows and scatter-adds them with no per-edge factor; `G2` multiplies row `n` of the aggregate by `dis n`, adds the
  bias and clamps at zero.  The middle pallas_call does `G2` and the next layer's `G0` in one pass (`G1`).
-/
import Idealize.ShloMosaic.PureOps
import Idealize.ShloMosaic.PureOps.Ideal
import Idealize.ShloMosaic.Lib.ValueIdx
import proofs.«130294_j67164698575202_2_alg».proof.Proof.LibRowsIndex

noncomputable section

namespace Cert.Gcn

open Idealize.ShloMosaic Idealize.ShloMosaic.ValueIdx

abbrev S0 : Shape := ⟨0, ![]⟩
abbrev SN : Shape := ⟨1, ![50000]⟩
abbrev SN1 : Shape := ⟨2, ![50000, 1]⟩
abbrev SND : Shape := ⟨2, ![50000, 128]⟩
abbrev SD : Shape := ⟨1, ![128]⟩
abbrev S1D : Shape := ⟨2, ![1, 128]⟩
abbrev SDD : Shape := ⟨2, ![128, 128]⟩
abbrev S2E0 : Shape := ⟨2, ![2, 800000]⟩
abbrev S1E0 : Shape := ⟨2, ![1, 800000]⟩
abbrev SE0 : Shape := ⟨1, ![800000]⟩
abbrev SE : Shape := ⟨1, ![850000]⟩
abbrev SE1 : Shape := ⟨2, ![850000, 1]⟩
abbrev SED : Shape := ⟨2, ![850000, 128]⟩

/-- The shape relations the operations below take as evidence (each program states and proves its own copies; as
    propositions any two proofs are the same). -/
structure ShapeFacts : Prop where
  sl0 : S2E0.Slices ![0, 0] S1E0
  sl1 : S2E0.Slices ![1, 0] S1E0
  sc : S1E0.ShapeCasts SE0
  cat : Shape.Concatenates [SE0, SN] SE 0
  b0E : S0.BroadcastsInDim SE (![] : Fin 0 → Fin SE.rank)
  b0N : S0.BroadcastsInDim SN (![] : Fin 0 → Fin SN.rank)
  bE1 : SE.BroadcastsInDim SE1 (![0] : Fin 1 → Fin SE1.rank)
  bED : SE1.BroadcastsInDim SED (![0, 1] : Fin 2 → Fin SED.rank)
  b0ND : S0.BroadcastsInDim SND (![] : Fin 0 → Fin SND.rank)
  bD1D : SD.BroadcastsInDim S1D (![1] : Fin 1 → Fin S1D.rank)
  b1DND : S1D.BroadcastsInDim SND (![0, 1] : Fin 2 → Fin SND.rank)
  sct1 : ScatterDims.WF SN SE1 SE [] [0] [0] 1
  sct2 : ScatterDims.WF SND SE1 SED [1] [0] [0] 1
  gat1 : GatherDims.WF SN SE1 SE [] [0] [] [0] [] 1 ![1]
  gat2 : GatherDims.WF SND SE1 SED [1] [0] [] [0] [] 1 ![1, 128]
  dot : DotDims.WF SND SDD SND [1] [0] [0] [1] [] []
  scN1 : SN.ShapeCasts SN1
  scD1D : SD.ShapeCasts S1D

/-- They hold: each is decided on the literal shapes. -/
theorem facts : ShapeFacts :=
  ⟨by decide, by decide, by decide, by decide, by decide, by decide, by decide, by decide, by decide, by decide, by decide,
   by decide, by decide, by decide, by decide, by decide, by decide, by decide⟩

variable (hf : ShapeFacts)

/-- The degree's scatter: a flat operand, a column of indices, flat updates. -/
abbrev sd1 : ScatterDims SN SE1 SE where
  updateWindowDims := []
  insertedWindowDims := [0]
  scatterDimsToOperandDims := [0]
  indexVectorDim := 1
  wf := hf.sct1
/-- The messages' scatter: whole rows onto rows. -/
abbrev sd2 : ScatterDims SND SE1 SED := rowsScatter 50000 128 850000 hf.sct2
/-- The scale's gather: elements of a flat operand. -/
abbrev gd1 : GatherDims SN SE1 SE := flatDims 50000 850000 hf.gat1
/-- The features' gather: whole rows. -/
abbrev gd2 : GatherDims SND SE1 SED := rowsDims 50000 128 850000 hf.gat2
/-- The reference's matrix product. -/
abbrev dd : DotDims SND SDD SND where
  lhsContracting := [1]
  rhsContracting := [0]
  lhsNonContracting := [0]
  rhsNonContracting := [1]
  lhsBatch := []
  rhsBatch := []
  wf := hf.dot

/-- Row `r` of `edge_index`, then the nodes `0 … 49999`: the edges' ends with one self-loop per node appended. -/
def endsOf (r : Fin 2 → Nat) (h : S2E0.Slices r S1E0) (ei : IVec S2E0 32) : IVec SE 32 :=
  concatenate SE 0 [⟨SE0, shapeCast SE0 (extractStridedSlice S1E0 r ei h) hf.sc⟩, ⟨SN, iotaInDim SN 32 0⟩] hf.cat
/-- The edges' sources. -/
def srcOf (ei : IVec S2E0 32) : IVec SE 32 := endsOf hf ![0, 0] hf.sl0 ei
/-- The edges' destinations. -/
def dstOf (ei : IVec S2E0 32) : IVec SE 32 := endsOf hf ![1, 0] hf.sl1 ei

/-- A vector of node indices as a column of scatter indices, as it is. -/
def rawIdx (v : IVec SE 32) : IVec SE1 32 := broadcastInDim SE1 ![0] hf.bE1 v
/-- A vector of node indices as a column of gather indices: a negative one counted from the end. -/
def normIdx (v : IVec SE 32) : IVec SE1 32 :=
  broadcastInDim SE1 ![0] hf.bE1
    (select (cmpi .slt v (broadcastInDim SE ![] hf.b0E (constantI S0 32 0#32)))
      (addi v (broadcastInDim SE ![] hf.b0E (constantI S0 32 50000#32))) v)

/-- Zeros over the nodes. -/
def zerosN : FVec Ideal SN .f32 := broadcastInDim SN ![] hf.b0N (constant (F := Ideal) S0 .f32 0x00000000#32)
/-- Zeros over the node features. -/
def zerosND : FVec Ideal SND .f32 := broadcastInDim SND ![] hf.b0ND (constant (F := Ideal) S0 .f32 0x00000000#32)

/-- The in-degree: one per edge that lands on the node. -/
def degOf (dst : IVec SE 32) : FVec Ideal SN .f32 :=
  Host.scatterAdd (F := Ideal) (sd1 hf) (zerosN hf) (rawIdx hf dst)
    (broadcastInDim SE ![] hf.b0E (constant (F := Ideal) S0 .f32 0x3F800000#32))
/-- The inverse square-root degree, `0` where the degree is not positive. -/
def disOf (dst : IVec SE 32) : FVec Ideal SN .f32 :=
  select (cmpf (F := Ideal) .ogt (degOf hf dst) (zerosN hf)) (Host.rsqrt (F := Ideal) (degOf hf dst)) (zerosN hf)

/-- The reference's layer. -/
def layerR (src dst : IVec SE 32) (dis : FVec Ideal SN .f32) (X : FVec Ideal SND .f32) (W : FVec Ideal SDD .f32)
    (b : FVec Ideal SD .f32) : FVec Ideal SND .f32 :=
  addf
    (Host.scatterAdd (F := Ideal) (sd2 hf) (zerosND hf) (rawIdx hf dst)
      (mulf (Host.gather (gd2 hf) (Host.dotGeneral (F := Ideal) (dd hf) none X W) (normIdx hf src))
        (broadcastInDim SED ![0, 1] hf.bED (broadcastInDim SE1 ![0] hf.bE1
          (mulf (Host.gather (gd1 hf) dis (normIdx hf src)) (Host.gather (gd1 hf) dis (normIdx hf dst)))))))
    (broadcastInDim SND ![0, 1] hf.b1DND (broadcastInDim S1D ![1] hf.bD1D b))
/-- The clamp at zero. -/
def relu (Y : FVec Ideal SND .f32) : FVec Ideal SND .f32 := maximumf Y (zerosND hf)

/-- The reference: two layers, each clamped. -/
def refOut (x : FVec Ideal SND .f32) (ei : IVec S2E0 32) (W1 : FVec Ideal SDD .f32) (b1 : FVec Ideal SD .f32)
    (W2 : FVec Ideal SDD .f32) (b2 : FVec Ideal SD .f32) : FVec Ideal SND .f32 :=
  relu hf (layerR hf (srcOf hf ei) (dstOf hf ei) (disOf hf (dstOf hf ei))
    (relu hf (layerR hf (srcOf hf ei) (dstOf hf ei) (disOf hf (dstOf hf ei)) x W1 b1)) W2 b2)

/-- The kernel's aggregation between pallas_calls: rows gathered by source, scatter-added by destination. -/
def aggK (src dst : IVec SE 32) (H : FVec Ideal SND .f32) : FVec Ideal SND .f32 :=
  Host.scatterAdd (F := Ideal) (sd2 hf) (zerosND hf) (rawIdx hf dst) (Host.gather (gd2 hf) H (normIdx hf src))

/-- The pre-scaled product: row `n`, column `j` is `(∑ₖ X(n, k) · W(k, j)) · D(n)`. -/
def G0 (X : FVec Ideal SND .f32) (W : FVec Ideal SDD .f32) (D : FVec Ideal SN1 .f32) : FVec Ideal SND .f32 :=
  fun i => (∑ k : Fin 128, X (ix2 (i 0 : Fin 50000) k) * W (ix2 k (i 1 : Fin 128))) * D (ix2 (i 0 : Fin 50000) (0 : Fin 1))
/-- The closing of a layer: row `n`, column `j` is `max (D(n) · A(n, j) + B(j)) 0`. -/
def G2 (A : FVec Ideal SND .f32) (D : FVec Ideal SN1 .f32) (B : FVec Ideal S1D .f32) : FVec Ideal SND .f32 :=
  fun i => max (D (ix2 (i 0 : Fin 50000) (0 : Fin 1)) * A i + B (ix2 (0 : Fin 1) (i 1 : Fin 128))) 0
/-- The fused middle pass: a layer closed, the next one's pre-scaled product opened. -/
def G1 (A : FVec Ideal SND .f32) (D : FVec Ideal SN1 .f32) (B : FVec Ideal S1D .f32) (W : FVec Ideal SDD .f32) : FVec Ideal SND .f32 :=
  G0 (G2 A D B) W D

/-- The kernel program: three pallas_calls around two aggregations. -/
def kerOut (x : FVec Ideal SND .f32) (ei : IVec S2E0 32) (W1 : FVec Ideal SDD .f32) (b1 : FVec Ideal SD .f32)
    (W2 : FVec Ideal SDD .f32) (b2 : FVec Ideal SD .f32) : FVec Ideal SND .f32 :=
  G2 (aggK hf (srcOf hf ei) (dstOf hf ei)
        (G1 (aggK hf (srcOf hf ei) (dstOf hf ei) (G0 x W1 (shapeCast SN1 (disOf hf (dstOf hf ei)) hf.scN1)))
          (shapeCast SN1 (disOf hf (dstOf hf ei)) hf.scN1) (shapeCast S1D b1 hf.scD1D) W2))
    (shapeCast SN1 (disOf hf (dstOf hf ei)) hf.scN1) (shapeCast S1D b2 hf.scD1D)

end Cert.Gcn

end
-- ==== Proof.KerReg0.lean ====
/-
  The first pallas_call as ONE function of its arrays.

  Its grid has ten points; point `t` stages rows `5000·t … 5000·t + 4999` of the node features `X` and of the
  scale column `D`, all of the weight matrix `W`, and writes back the same rows of the result.  In a block, row `p`,
  column `q` of the result is `(∑ₖ X(p, k) · W(k, q)) · D(p)`: a product of a row of `X` with a column of `W`
  (the narrowing to bf16 before the matrix unit is the identity on extended reals, and the accumulator starts at
  zero), scaled by that row's entry of `D`.  Row `p` of block `t` is row `5000·t + p` of every array, the ten
  blocks tile the fifty thousand rows, so the whole result is `G0 X W D`.
-/
import proofs.«130294_j67164698575202_2_alg».proof.Proof.Gen.KernelIdeal.Frame
import proofs.«130294_j67164698575202_2_alg».proof.Proof.LibLayout
import proofs.«130294_j67164698575202_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

/-- The kernel's matrix product is the plain `[5000, 128] × [128, 128]` one. -/
theorem dot_plain : (dot_S5000x128_S128x128_S5000x128_1_0_0_1_n_n : DotDims S5000x128 S128x128 S5000x128) = DotDims.plain 5000 128 128 := rfl

/-- The matrix unit's product into a zero accumulator, at row `p`, column `q` of a block. -/
theorem matmul_rows (l : FVec Ideal S5000x128 .bf16) (r : FVec Ideal S128x128 .bf16) (p : Fin 5000) (q : Fin 128) :
    (matmul dot_S5000x128_S128x128_S5000x128_1_0_0_1_n_n none l r (constant S5000x128 .f32 0x00000000#32) : FVec Ideal S5000x128 .f32) (ix2 p q)
      = ∑ k : Fin 128, l (ix2 p k) * r (ix2 k q) := by
  rw [dot_plain]
  rw [show (matmul (DotDims.plain 5000 128 128) none l r (constant S5000x128 .f32 0x00000000#32) : FVec Ideal S5000x128 .f32) (ix2 p q) = _ from Ideal.matmul_constant_zero_apply (DotDims.plain 5000 128 128) none _ _ (ix2 p q)]
  exact Cert.Gcn.plain_sum l r p q

/-- The body's arithmetic at row `p`, column `q` of a block. -/
theorem pay0_apply (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, matmul_rows, shapeCast_self, Cert.Gcn.broadcastTo_a1_ab_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the row blocks at block row `t`, the weights at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G0` of the arrays as the region finds them. -/
theorem flushed0_eq (c : Dev nD) (t : Fin cfg0.N) :
    (dat0 V c).flushed 3 t = ((cfg0.win 3).blk t).view.read (Elt Ideal) (Cert.Gcn.G0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
      = Cert.Gcn.G0 (V c main_arg0) (V c main_arg2) (V c main_v15) (((cfg0.win 3).blk t).view.emb (ix2 p q))
  refine (pay0_apply _ _ _ p q).trans ?_
  unfold Cert.Gcn.G0
  have h0 : ∀ k : Fin 128, ((cfg0.win 0).blk t).view.emb (ix2 p k)
      = ix2 ((((cfg0.win 3).blk t).view.emb (ix2 p q)) 0 : Fin 50000) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q)
      = ix2 k ((((cfg0.win 3).blk t).view.emb (ix2 p q)) 1 : Fin 128) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 p (0 : Fin 1))
      = ix2 ((((cfg0.win 3).blk t).view.emb (ix2 p q)) 0 : Fin 50000) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  have key : ∀ (X : Vec Ideal S50000x128 .f32) (W : Vec Ideal S128x128 .f32) (D : Vec Ideal S50000x1 .f32),
      (∑ k : Fin 128, X (((cfg0.win 0).blk t).view.emb (ix2 p k)) * W (((cfg0.win 1).blk t).view.emb (ix2 k q)))
        * D (((cfg0.win 2).blk t).view.emb (ix2 p (0 : Fin 1)))
      = (∑ k : Fin 128, X (ix2 ((((cfg0.win 3).blk t).view.emb (ix2 p q)) 0 : Fin 50000) k)
          * W (ix2 k ((((cfg0.win 3).blk t).view.emb (ix2 p q)) 1 : Fin 128)))
        * D (ix2 ((((cfg0.win 3).blk t).view.emb (ix2 p q)) 0 : Fin 50000) (0 : Fin 1)) := by
    intro X W D
    rw [h2]
    refine congrArg (· * _) (Finset.sum_congr rfl fun k _ => ?_)
    rw [h0 k, h1 k]
    rfl
  exact key (V c main_arg0) (V c main_arg2) (V c main_v15)

/-- An index of the result is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every block row is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- The ten blocks tile the result: row `r` is in block `r / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the first pallas_call, whatever the buffers held at its entry. -/
theorem final0 (c : Dev nD) : (dat0 V c).arrAt 3 cfg0.N = Cert.Gcn.G0 (V c main_arg0) (V c main_arg2) (V c main_v15) :=
  (dat0 V c).arrAt_eq_of_cover 3 (Cert.Gcn.G0 (V c main_arg0) (V c main_arg2) (V c main_v15)) (fun t _ => flushed0_eq V c t) cover0

end Cert.KernelIdeal.KVal

end
-- ==== Proof.KerReg2.lean ====
/-
  The third pallas_call as ONE function of its arrays.

  Point `t` of its ten stages rows `5000·t … 5000·t + 4999` of the aggregate `A` and of the scale column `D`, the one
  row of the bias `B`, and writes back the same rows of the result: row `p`, column `q` of a block is
  `max (D(p) · A(p, q) + B(q)) 0`.  The ten blocks tile the rows, so the whole result is `G2 A D B`.
-/
import proofs.«130294_j67164698575202_2_alg».proof.Proof.Gen.KernelIdeal.Frame
import proofs.«130294_j67164698575202_2_alg».proof.Proof.LibLayout
import proofs.«130294_j67164698575202_2_alg».proof.Proof.Spec
import proofs.«130294_j67164698575202_2_alg».proof.Proof.KerReg0
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

/-- The closing arithmetic of a layer at row `p`, column `q` of a block: scale, add the bias, clamp at zero. -/
theorem close_apply (v0 : Vec Ideal S5000x1 .f32) (v2 : Vec Ideal S5000x128 .f32) (v6 : Vec Ideal S1x128 .f32) (p : Fin 5000) (q : Fin 128) :
    (maximumf (addf (mulf (broadcastTo S5000x128 (shapeCast S5000x1 v0 shapeCasts_S5000x1_S5000x1) broadcasts_S5000x1_S5000x128)
        (shapeCast S5000x128 v2 shapeCasts_S5000x128_S5000x128))
        (broadcastTo S5000x128 (shapeCast S1x128 v6 shapeCasts_S1x128_S1x128) broadcasts_S1x128_S5000x128))
      (broadcast S5000x128 (Scalar.ofBits (F := Ideal) .f32 0x00000000#32)) : FVec Ideal S5000x128 .f32) (ix2 p q)
      = max (v0 (ix2 p (0 : Fin 1)) * v2 (ix2 p q) + v6 (ix2 (0 : Fin 1) q)) 0 := by
  rw [maximumf_apply, addf_apply, mulf_apply, broadcast_apply, shapeCast_self, shapeCast_self, shapeCast_self,
    Cert.Gcn.broadcastTo_a1_ab_apply, broadcastTo_1b_ab_apply]
  show max _ (Ideal.ofBits .f32 0x00000000#32) = _
  rw [Ideal.ofBits_zero_f32]

/-- The body's arithmetic at row `p`, column `q` of a block. -/
theorem pay2_apply (v0 : Vec Ideal S5000x1 .f32) (v2 : Vec Ideal S5000x128 .f32) (v6 : Vec Ideal S1x128 .f32) (p : Fin 5000) (q : Fin 128) :
    k2_pay1 (F := Ideal) v0 v2 v6 (ix2 p q) = max (v0 (ix2 p (0 : Fin 1)) * v2 (ix2 p q) + v6 (ix2 (0 : Fin 1) q)) 0 := by
  unfold k2_pay1
  exact close_apply v0 v2 v6 p q

variable (V : (c : Dev nD) → (b : Ref sig .tc) → Buf (Elt Ideal) ((c : Thread nD τ).loc b))

/-- Where each window's block sits at point `t`: the row blocks at block row `t`, the bias at the origin. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G2` of the arrays as the region finds them. -/
theorem flushed2_eq (c : Dev nD) (t : Fin cfg2.N) :
    (dat2 V c).flushed 3 t = ((cfg2.win 3).blk t).view.read (Elt Ideal) (Cert.Gcn.G2 (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S5000x1) hz]
  obtain ⟨e00, e01, e10, e11, e20, e21, e30, e31⟩ := idx_facts2 t
  funext j
  obtain ⟨p, q, rfl⟩ : ∃ (p : Fin 5000) (q : Fin 128), j = ix2 p q := ⟨j 0, j 1, eq_ix2 j⟩
  show k2_pay1 (F := Ideal) (iblk2 V c 1 t) (iblk2 V c 0 t) (iblk2 V c 2 t) (ix2 p q)
      = Cert.Gcn.G2 (V c main_v38) (V c main_v15) (V c main_v39) (((cfg2.win 3).blk t).view.emb (ix2 p q))
  refine (pay2_apply _ _ _ p q).trans ?_
  unfold Cert.Gcn.G2
  have h0 : ((cfg2.win 0).blk t).view.emb (ix2 p q) = ((cfg2.win 3).blk t).view.emb (ix2 p q) := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  have h1 : ((cfg2.win 1).blk t).view.emb (ix2 p (0 : Fin 1))
      = ix2 ((((cfg2.win 3).blk t).view.emb (ix2 p q)) 0 : Fin 50000) (0 : Fin 1) := by
    funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  have h2 : ((cfg2.win 2).blk t).view.emb (ix2 (0 : Fin 1) q)
      = ix2 (0 : Fin 1) ((((cfg2.win 3).blk t).view.emb (ix2 p q)) 1 : Fin 128) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  have key : ∀ (A : Vec Ideal S50000x128 .f32) (D : Vec Ideal S50000x1 .f32) (B : Vec Ideal S1x128 .f32),
      max (D (((cfg2.win 1).blk t).view.emb (ix2 p (0 : Fin 1))) * A (((cfg2.win 0).blk t).view.emb (ix2 p q))
          + B (((cfg2.win 2).blk t).view.emb (ix2 (0 : Fin 1) q))) 0
      = max (D (ix2 ((((cfg2.win 3).blk t).view.emb (ix2 p q)) 0 : Fin 50000) (0 : Fin 1)) * A (((cfg2.win 3).blk t).view.emb (ix2 p q))
          + B (ix2 (0 : Fin 1) ((((cfg2.win 3).blk t).view.emb (ix2 p q)) 1 : Fin 128))) 0 := by
    intro A D B
    rw [h0, h1, h2]
    rfl
  exact key (V c main_v38) (V c main_v15) (V c main_v39)

/-- An index of the result is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v40).slice (win2_3.rect t)).set ↔ _
  rw [View.set_slice_whole, Rect.mem_set_unit]
  exact Iff.rfl

/-- Every block row is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

/-- The ten blocks tile the result: row `r` is in block `r / 5000`. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the third pallas_call, whatever the buffers held at its entry. -/
theorem final2 (c : Dev nD) : (dat2 V c).arrAt 3 cfg2.N = Cert.Gcn.G2 (V c main_v38) (V c main_v15) (V c main_v39) :=
  (dat2 V c).arrAt_eq_of_cover 3 (Cert.Gcn.G2 (V c main_v38) (V c main_v15) (V c main_v39)) (fun t _ => flushed2_eq V c t) cover2

end Cert.KernelIdeal.KVal

end
-- ==== Proof.KerReg1.lean ====
/-
  The middle pallas_call as ONE function of its arrays.

  Point `t` of its ten stages rows `5000·t … 5000·t + 4999` of the first layer's aggregate `A` and of the scale column
  `D`, the bias row `B` and all of the second weight matrix `W`.  It closes the first layer in the block —
  `h(p, k) = max (D(p) · A(p, k) + B(k)) 0` — and opens the second: row `p`, column `q` of the written-back block is
  `(∑ₖ h(p, k) · W(k, q)) · D(p)`.  The ten blocks tile the rows, so the whole result is `G1 A D B W`, which is
  `G0 (G2 A D B) W D`.
-/
import proofs.«130294_j67164698575202_2_alg».proof.Proof.Gen.KernelIdeal.Frame
import proofs.«130294_j67164698575202_2_alg».proof.Proof.LibLayout
import proofs.«130294_j67164698575202_2_alg».proof.Proof.Spec
import proofs.«130294_j67164698575202_2_alg».proof.Proof.KerReg0
import proofs.«130294_j67164698575202_2_alg».proof.Proof.KerReg2
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

/-- The body's arithmetic at row `p`, column `q` of a block. -/
theorem pay1_apply (v0 : Vec Ideal S5000x1 .f32) (v2 : Vec Ideal S5000x128 .f32) (v6 : Vec Ideal S1x128 .f32) (v13 : Vec Ideal S128x128 .f32)
    (p : Fin 5000) (q : Fin 128) :
    k1_pay1 (F := Ideal) v0 v2 v6 v13 (ix2 p q)
      = (∑ k : Fin 128, max (v0 (ix2 p (0 : Fin 1)) * v2 (ix2 p k) + v6 (ix2 (0 : Fin 1) k)) 0 * v13 (ix2 k q)) * v0 (ix2 p (0 : Fin 1)) := by
  unfold k1_pay1
  rw [mulf_apply, matmul_rows]
  refine congrArg₂ (· * ·) (Finset.sum_congr rfl fun k _ => ?_) ?_
  · rw [truncf_apply, truncf_apply]
    exact congrArg (· * _) (close_apply v0 v2 v6 p k)
  · rw [shapeCast_self, Cert.Gcn.broadcastTo_a1_ab_apply]

variable (V : (c : Dev nD) → (b : Ref sig .tc) → Buf (Elt Ideal) ((c : Thread nD τ).loc b))

/-- Where each window's block sits at point `t`: the row blocks at block row `t`, the bias and the weights at the
    origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `G1` of the arrays as the region finds them. -/
theorem flushed1_eq (c : Dev nD) (t : Fin cfg1.N) :
    (dat1 V c).flushed 4 t = ((cfg1.win 4).blk t).view.read (Elt Ideal)
      (Cert.Gcn.G1 (V c main_v26) (V c main_v15) (V c main_v27) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz, View.ld_unit_zero (S := S5000x1) hz,
    View.ld_unit_zero (S := S128x128) hz]
  obtain ⟨e00, e01, e10, e11, e20, e21, e30, e31, e40, e41⟩ := idx_facts1 t
  funext j
  obtain ⟨p, q, rfl⟩ : ∃ (p : Fin 5000) (q : Fin 128), j = ix2 p q := ⟨j 0, j 1, eq_ix2 j⟩
  show k1_pay1 (F := Ideal) (iblk1 V c 1 t) (iblk1 V c 0 t) (iblk1 V c 2 t) (iblk1 V c 3 t) (ix2 p q)
      = Cert.Gcn.G1 (V c main_v26) (V c main_v15) (V c main_v27) (V c main_arg4) (((cfg1.win 4).blk t).view.emb (ix2 p q))
  refine (pay1_apply _ _ _ _ p q).trans ?_
  unfold Cert.Gcn.G1 Cert.Gcn.G0 Cert.Gcn.G2
  have h0 : ∀ k : Fin 128, ((cfg1.win 0).blk t).view.emb (ix2 p k)
      = ix2 ((((cfg1.win 4).blk t).view.emb (ix2 p q)) 0 : Fin 50000) k := fun k => by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have h1 : ((cfg1.win 1).blk t).view.emb (ix2 p (0 : Fin 1))
      = ix2 ((((cfg1.win 4).blk t).view.emb (ix2 p q)) 0 : Fin 50000) (0 : Fin 1) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 k q)
      = ix2 k ((((cfg1.win 4).blk t).view.emb (ix2 p q)) 1 : Fin 128) := fun k => by
    funext a; apply Fin.ext
    match a with
    | ⟨0, _⟩ => show win1_3.index t (0 : Fin 2) * 128 + 1 * k.val = k.val; omega
    | ⟨1, _⟩ => show win1_3.index t (1 : Fin 2) * 128 + 1 * q.val = win1_4.index t (1 : Fin 2) * 128 + 1 * q.val; omega
  have key : ∀ (A : Vec Ideal S50000x128 .f32) (D : Vec Ideal S50000x1 .f32) (B : Vec Ideal S1x128 .f32) (W : Vec Ideal S128x128 .f32),
      (∑ k : Fin 128, max (D (((cfg1.win 1).blk t).view.emb (ix2 p (0 : Fin 1))) * A (((cfg1.win 0).blk t).view.emb (ix2 p k))
            + B (((cfg1.win 2).blk t).view.emb (ix2 (0 : Fin 1) k))) 0 * W (((cfg1.win 3).blk t).view.emb (ix2 k q)))
        * D (((cfg1.win 1).blk t).view.emb (ix2 p (0 : Fin 1)))
      = (∑ k : Fin 128, max (D (ix2 ((((cfg1.win 4).blk t).view.emb (ix2 p q)) 0 : Fin 50000) (0 : Fin 1))
              * A (ix2 ((((cfg1.win 4).blk t).view.emb (ix2 p q)) 0 : Fin 50000) k) + B (ix2 (0 : Fin 1) k)) 0
            * W (ix2 k ((((cfg1.win 4).blk t).view.emb (ix2 p q)) 1 : Fin 128)))
        * D (ix2 ((((cfg1.win 4).blk t).view.emb (ix2 p q)) 0 : Fin 50000) (0 : Fin 1)) := by
    intro A D B W
    rw [h1]
    refine congrArg (· * _) (Finset.sum_congr rfl fun k _ => ?_)
    rw [h0 k, h2 k, h3 k]
    rfl
  exact key (V c main_v26) (V c main_v15) (V c main_v27) (V c main_arg4)

/-- An index of the result is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- Every block row is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-- The ten blocks tile the result: row `r` is in block `r / 5000`. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array after the middle pallas_call, whatever the buffers held at its entry. -/
theorem final1 (c : Dev nD) : (dat1 V c).arrAt 4 cfg1.N = Cert.Gcn.G1 (V c main_v26) (V c main_v15) (V c main_v27) (V c main_arg4) :=
  (dat1 V c).arrAt_eq_of_cover 4 (Cert.Gcn.G1 (V c main_v26) (V c main_v15) (V c main_v27) (V c main_arg4)) (fun t _ => flushed1_eq V c t) cover1

end Cert.KernelIdeal.KVal

end
-- ==== Proof.KerVal.lean ====
/-
  The kernel program's result as one function of its arguments.

  The frame's fold carries every buffer's contents through the eight segments.  Read at the result buffer and walked
  back: the third pallas_call leaves `G2` of the second aggregate, the scale column and the second bias row; the
  second aggregate is the host's gather and scatter-add of what the middle pallas_call left, `G1` of the first
  aggregate; the first aggregate is the gather and scatter-add of what the first pallas_call left, `G0` of the node
  features; and the scale column, the edge ends and the bias rows are the host operations' terms of the arguments.
  Composed: `Cert.Gcn.kerOut` of the six arguments.
-/
import proofs.«130294_j67164698575202_2_alg».proof.Proof.KerReg0
import proofs.«130294_j67164698575202_2_alg».proof.Proof.KerReg1
import proofs.«130294_j67164698575202_2_alg».proof.Proof.KerReg2
import proofs.«130294_j67164698575202_2_alg».proof.Proof.Spec
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem
open Idealize.ShloMosaic.StableHlo
open Idealize.ShloMosaic.Pipeline (Dat)
open Cert.Gcn (facts srcOf dstOf degOf disOf zerosN aggK G0 G1 G2 kerOut SN1 S1D)

variable (m : (ℓ : Loc nD τ sig) → Buf (Elt Ideal) ℓ) (ρ : Dev nD → PrngReg)

/-! ## Before the first pallas_call -/

theorem W3_v3 (c : Dev nD) : W3 m ρ c (Proc.devRef .tc main_v3) = srcOf facts (m ((c : Thread nD τ).loc main_arg1)) := by
  dsimp only [W3, W2, W1, hostOps0, hostOps0_1, hostOps0_2]; after_results <;> rfl
theorem W3_v6 (c : Dev nD) : W3 m ρ c (Proc.devRef .tc main_v6) = dstOf facts (m ((c : Thread nD τ).loc main_arg1)) := by
  dsimp only [W3, W2, W1, hostOps0, hostOps0_1, hostOps0_2]; after_results <;> rfl
theorem W1_v12 (c : Dev nD) : W1 m ρ c (Proc.devRef .tc main_v12)
    = cmpf (F := Ideal) .ogt (degOf facts (dstOf facts (m ((c : Thread nD τ).loc main_arg1)))) (zerosN facts) := by
  dsimp only [W1, hostOps0]; after_results <;> rfl
theorem W1_v13 (c : Dev nD) : W1 m ρ c (Proc.devRef .tc main_v13)
    = Host.rsqrt (F := Ideal) (degOf facts (dstOf facts (m ((c : Thread nD τ).loc main_arg1)))) := by
  dsimp only [W1, hostOps0]; after_results <;> rfl
theorem W1_cst_2 (c : Dev nD) : W1 m ρ c (Proc.devRef .tc main_cst_2) = constant (F := Ideal) S_ .f32 0x00000000#32 := by
  dsimp only [W1, hostOps0]; after_results <;> rfl
/-- `jnp.where` over any contents: the select of the comparison, the inverse square root and a zero splat. -/
theorem where_at (Vv : Valuation τ sig (Elt Ideal)) :
    after (hostOps0_1 (F := Ideal)) Vv (Proc.devRef .tc main_v14)
      = select (Vv (Proc.devRef .tc main_v12)) (Vv (Proc.devRef .tc main_v13))
          (broadcastInDim S50000 ![] bcast_S_S50000 (Vv (Proc.devRef .tc main_cst_2))) := by
  dsimp only [hostOps0_1]; after_results <;> rfl
/-- The reshape of the scale to a column, over any contents. -/
theorem column_at (Vv : Valuation τ sig (Elt Ideal)) :
    after (hostOps0_2 (F := Ideal)) Vv (Proc.devRef .tc main_v15)
      = shapeCast SN1 (Vv (Proc.devRef .tc main_v14)) facts.scN1 := by
  dsimp only [hostOps0_2]; after_results <;> rfl
theorem W2_v14 (c : Dev nD) : W2 m ρ c (Proc.devRef .tc main_v14)
    = select (W1 m ρ c (Proc.devRef .tc main_v12)) (W1 m ρ c (Proc.devRef .tc main_v13))
        (broadcastInDim S50000 ![] bcast_S_S50000 (W1 m ρ c (Proc.devRef .tc main_cst_2))) :=
  where_at (W1 m ρ c)
theorem W3_v15' (c : Dev nD) : W3 m ρ c (Proc.devRef .tc main_v15)
    = shapeCast SN1 (W2 m ρ c (Proc.devRef .tc main_v14)) facts.scN1 :=
  column_at (W2 m ρ c)
theorem W3_v15 (c : Dev nD) : W3 m ρ c (Proc.devRef .tc main_v15)
    = shapeCast SN1 (disOf facts (dstOf facts (m ((c : Thread nD τ).loc main_arg1)))) facts.scN1 := by
  rw [W3_v15', W2_v14, W1_v12, W1_v13, W1_cst_2]
  rfl
theorem W3_arg0 (c : Dev nD) : W3 m ρ c (Proc.devRef .tc main_arg0) = m ((c : Thread nD τ).loc main_arg0) := by
  dsimp only [W3, W2, W1, hostOps0, hostOps0_1, hostOps0_2]; after_results <;> rfl
theorem W3_arg2 (c : Dev nD) : W3 m ρ c (Proc.devRef .tc main_arg2) = m ((c : Thread nD τ).loc main_arg2) := by
  dsimp only [W3, W2, W1, hostOps0, hostOps0_1, hostOps0_2]; after_results <;> rfl
theorem W3_arg3 (c : Dev nD) : W3 m ρ c (Proc.devRef .tc main_arg3) = m ((c : Thread nD τ).loc main_arg3) := by
  dsimp only [W3, W2, W1, hostOps0, hostOps0_1, hostOps0_2]; after_results <;> rfl
theorem W3_arg4 (c : Dev nD) : W3 m ρ c (Proc.devRef .tc main_arg4) = m ((c : Thread nD τ).loc main_arg4) := by
  dsimp only [W3, W2, W1, hostOps0, hostOps0_1, hostOps0_2]; after_results <;> rfl
theorem W3_arg5 (c : Dev nD) : W3 m ρ c (Proc.devRef .tc main_arg5) = m ((c : Thread nD τ).loc main_arg5) := by
  dsimp only [W3, W2, W1, hostOps0, hostOps0_1, hostOps0_2]; after_results <;> rfl

/-! ## After the first pallas_call -/

theorem W4_v16 (c : Dev nD) : W4 m ρ c (Proc.devRef .tc main_v16)
    = G0 (m ((c : Thread nD τ).loc main_arg0)) (m ((c : Thread nD τ).loc main_arg2)) (shapeCast SN1 (disOf facts (dstOf facts (m ((c : Thread nD τ).loc main_arg1)))) facts.scN1) := by
  refine (W4_arr m ρ c 3).trans ((final0 (V3 m ρ) c).trans ?_)
  show G0 (W3 m ρ c (Proc.devRef .tc main_arg0)) (W3 m ρ c (Proc.devRef .tc main_arg2)) (W3 m ρ c (Proc.devRef .tc main_v15)) = _
  rw [W3_arg0, W3_arg2, W3_v15]
theorem W4_v15 (c : Dev nD) : W4 m ρ c (Proc.devRef .tc main_v15)
    = shapeCast SN1 (disOf facts (dstOf facts (m ((c : Thread nD τ).loc main_arg1)))) facts.scN1 :=
  ((W4_arr m ρ c 2).trans (((dat0 (V3 m ρ) c).arrAt_in 2 rfl _).trans (A_eq0 (V3 m ρ) c 2))).trans (W3_v15 m ρ c)
theorem W4_v3 (c : Dev nD) : W4 m ρ c (Proc.devRef .tc main_v3) = srcOf facts (m ((c : Thread nD τ).loc main_arg1)) :=
  (W4_of_ne m ρ c main_v3 (by decide)).trans (W3_v3 m ρ c)
theorem W4_v6 (c : Dev nD) : W4 m ρ c (Proc.devRef .tc main_v6) = dstOf facts (m ((c : Thread nD τ).loc main_arg1)) :=
  (W4_of_ne m ρ c main_v6 (by decide)).trans (W3_v6 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## Before the middle pallas_call -/

theorem W5_v26 (c : Dev nD) : W5 m ρ c (Proc.devRef .tc main_v26)
    = aggK facts (W4 m ρ c (Proc.devRef .tc main_v3)) (W4 m ρ c (Proc.devRef .tc main_v6)) (W4 m ρ c (Proc.devRef .tc main_v16)) := by
  dsimp only [W5, hostOps1]; after_results <;> rfl
theorem W5_v27 (c : Dev nD) : W5 m ρ c (Proc.devRef .tc main_v27) = shapeCast S1D (W4 m ρ c (Proc.devRef .tc main_arg3)) facts.scD1D := by
  dsimp only [W5, hostOps1]; after_results <;> rfl
theorem W5_v15 (c : Dev nD) : W5 m ρ c (Proc.devRef .tc main_v15) = W4 m ρ c (Proc.devRef .tc main_v15) := by
  dsimp only [W5, hostOps1]; after_results <;> rfl
theorem W5_arg4 (c : Dev nD) : W5 m ρ c (Proc.devRef .tc main_arg4) = W4 m ρ c (Proc.devRef .tc main_arg4) := by
  dsimp only [W5, hostOps1]; after_results <;> rfl
theorem W5_arg5 (c : Dev nD) : W5 m ρ c (Proc.devRef .tc main_arg5) = W4 m ρ c (Proc.devRef .tc main_arg5) := by
  dsimp only [W5, hostOps1]; after_results <;> rfl
theorem W5_v3 (c : Dev nD) : W5 m ρ c (Proc.devRef .tc main_v3) = W4 m ρ c (Proc.devRef .tc main_v3) := by
  dsimp only [W5, hostOps1]; after_results <;> rfl
theorem W5_v6 (c : Dev nD) : W5 m ρ c (Proc.devRef .tc main_v6) = W4 m ρ c (Proc.devRef .tc main_v6) := by
  dsimp only [W5, hostOps1]; after_results <;> rfl

/-! ## After the middle pallas_call -/

theorem W6_v28 (c : Dev nD) : W6 m ρ c (Proc.devRef .tc main_v28)
    = G1 (W5 m ρ c (Proc.devRef .tc main_v26)) (W5 m ρ c (Proc.devRef .tc main_v15)) (W5 m ρ c (Proc.devRef .tc main_v27))
        (W5 m ρ c (Proc.devRef .tc main_arg4)) :=
  (W6_arr m ρ c 4).trans (final1 (V5 m ρ) c)
theorem W6_v15 (c : Dev nD) : W6 m ρ c (Proc.devRef .tc main_v15) = W5 m ρ c (Proc.devRef .tc main_v15) :=
  (W6_arr m ρ c 1).trans (((dat1 (V5 m ρ) c).arrAt_in 1 rfl _).trans (A_eq1 (V5 m ρ) c 1))
theorem W6_v3 (c : Dev nD) : W6 m ρ c (Proc.devRef .tc main_v3) = W5 m ρ c (Proc.devRef .tc main_v3) :=
  W6_of_ne m ρ c main_v3 (by decide)
theorem W6_v6 (c : Dev nD) : W6 m ρ c (Proc.devRef .tc main_v6) = W5 m ρ c (Proc.devRef .tc main_v6) :=
  W6_of_ne m ρ c main_v6 (by decide)
theorem W6_arg5 (c : Dev nD) : W6 m ρ c (Proc.devRef .tc main_arg5) = W5 m ρ c (Proc.devRef .tc main_arg5) :=
  W6_of_ne m ρ c main_arg5 (by decide)

/-! ## Before the third pallas_call -/

theorem W7_v38 (c : Dev nD) : W7 m ρ c (Proc.devRef .tc main_v38)
    = aggK facts (W6 m ρ c (Proc.devRef .tc main_v3)) (W6 m ρ c (Proc.devRef .tc main_v6)) (W6 m ρ c (Proc.devRef .tc main_v28)) := by
  dsimp only [W7, hostOps2]; after_results <;> rfl
theorem W7_v39 (c : Dev nD) : W7 m ρ c (Proc.devRef .tc main_v39) = shapeCast S1D (W6 m ρ c (Proc.devRef .tc main_arg5)) facts.scD1D := by
  dsimp only [W7, hostOps2]; after_results <;> rfl
theorem W7_v15 (c : Dev nD) : W7 m ρ c (Proc.devRef .tc main_v15) = W6 m ρ c (Proc.devRef .tc main_v15) := by
  dsimp only [W7, hostOps2]; after_results <;> rfl

/-! ## After the third pallas_call: the result -/

theorem W8_v40 (c : Dev nD) : W8 m ρ c (Proc.devRef .tc main_v40)
    = G2 (W7 m ρ c (Proc.devRef .tc main_v38)) (W7 m ρ c (Proc.devRef .tc main_v15)) (W7 m ρ c (Proc.devRef .tc main_v39)) :=
  (W8_arr m ρ c 3).trans (final2 (V7 m ρ) c)

/-- The result buffer after the run is `kerOut` of the six arguments. -/
theorem W8_result (c : Dev nD) : W8 m ρ c (Proc.devRef .tc main_v40)
    = kerOut facts (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  rw [W8_v40, W7_v38, W7_v15, W7_v39, W6_v28, W6_v15, W6_v3, W6_v6, W6_arg5, W5_v26, W5_v27, W5_v15, W5_arg4, W5_arg5,
    W5_v3, W5_v6, W4_v16, W4_v15, W4_v3, W4_v6, W4_arg3, W4_arg4, W4_arg5]
  rfl

end Cert.KernelIdeal.KVal

end
-- ==== Proof.RefRun.lean ====
/-
  The reference program's run, read back.

  The reference has no kernel: its @main is a straight line of 105 host operations (the three module-local functions —
  `jnp.where`'s select and the two `relu`s — stand inlined at their calls).  Every weakly fair execution of such a line
  terminates with each buffer at the operations' composed term of the launch contents.  The line is read in six
  stretches — the edge list and the degree, the select, the first layer, its clamp, the second layer, its clamp —
  each a pure function of the buffers it finds; composed, the result buffer holds `Cert.Gcn.refOut` of the six
  arguments, and the arguments are untouched.
-/
import proofs.«130294_j67164698575202_2_alg».proof.Proof.Gen.ReferenceIdeal
import proofs.«130294_j67164698575202_2_alg».proof.Proof.Spec
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.Gcn (facts srcOf dstOf degOf disOf zerosN zerosND layerR relu refOut)

variable {F : FTy → Type} [FloatOps F]

/-- @main's 105 operations, in order (a called function's operations stand in its call's place, spelt `TRef.…`). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    binary main_arg0 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v15 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v14 main_v54 main_v55 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_11 (constantI S_ 32 0#32),
    unary main_c_11 main_v56 (broadcastInDim S850000 ![] bcast_S_S850000 : (⟨S_, .i32⟩ : BufTy).Contents (Elt F) → (⟨S850000, .i32⟩ : BufTy).Contents (Elt F)),
    binary main_v6 main_v56 main_v57 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v58 (broadcastInDim S850000 ![] bcast_S_S850000 : (⟨S_, .i32⟩ : BufTy).Contents (Elt F) → (⟨S850000, .i32⟩ : BufTy).Contents (Elt F)),
    binary main_v6 main_v58 main_v59 (addi : (⟨S850000, .i32⟩ : BufTy).Contents (Elt F) → (⟨S850000, .i32⟩ : BufTy).Contents (Elt F) → (⟨S850000, .i32⟩ : BufTy).Contents (Elt F)),
    ternary main_v57 main_v59 main_v6 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v60 main_v61 (broadcastInDim S850000x1 ![0] bcast_S850000_S850000x1_0 : (⟨S850000, .i32⟩ : BufTy).Contents (Elt F) → (⟨S850000x1, .i32⟩ : BufTy).Contents (Elt F)),
    binary main_v14 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v55 main_v62 main_v63 (mulf : (⟨S850000, .f32⟩ : BufTy).Contents (Elt F) → (⟨S850000, .f32⟩ : BufTy).Contents (Elt F) → (⟨S850000, .f32⟩ : BufTy).Contents (Elt F)),
    nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v3 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v3 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v3 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v48 main_v69 main_v70 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v63 main_v71 (broadcastInDim S850000x1 ![0] bcast_S850000_S850000x1_0 : (⟨S850000, .f32⟩ : BufTy).Contents (Elt F) → (⟨S850000x1, .f32⟩ : BufTy).Contents (Elt F)),
    unary main_v71 main_v72 (broadcastInDim S850000x128 ![0, 1] bcast_S850000x1_S850000x128_0_1 : (⟨S850000x1, .f32⟩ : BufTy).Contents (Elt F) → (⟨S850000x128, .f32⟩ : BufTy).Contents (Elt F)),
    binary main_v70 main_v72 main_v73 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v74 (broadcastInDim S50000x128 ![] bcast_S_S50000x128 : (⟨S_, .f32⟩ : BufTy).Contents (Elt F) → (⟨S50000x128, .f32⟩ : BufTy).Contents (Elt F)),
    unary main_v6 main_v75 (broadcastInDim S850000x1 ![0] bcast_S850000_S850000x1_0 : (⟨S850000, .i32⟩ : BufTy).Contents (Elt F) → (⟨S850000x1, .i32⟩ : BufTy).Contents (Elt F)),
    ternary main_v74 main_v75 main_v73 main_v76 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v79) (TRef.of (T := ⟨S50000x128, .f32⟩) main_call2_v0) (TRef.of (T := ⟨S50000x128, .f32⟩) main_v80) maximumf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-! ## The six stretches -/

/-- The edge list with its self-loops, the in-degree, its comparison with zero and its inverse square root. -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- `jnp.where`: the inverse square-root degree where the degree is positive, else zero. -/
abbrev opsW : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The first layer, up to the bias. -/
abbrev opsB : List (HloOp τ sig (Elt F)) :=
  [ binary main_arg0 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v15 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- The first clamp at zero. -/
abbrev opsR1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second layer, up to the bias. -/
abbrev opsC : List (HloOp τ sig (Elt F)) :=
  [ binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v14 main_v54 main_v55 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_11 (constantI S_ 32 0#32),
    unary main_c_11 main_v56 (broadcastInDim S850000 ![] bcast_S_S850000 : (⟨S_, .i32⟩ : BufTy).Contents (Elt F) → (⟨S850000, .i32⟩ : BufTy).Contents (Elt F)),
    binary main_v6 main_v56 main_v57 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v58 (broadcastInDim S850000 ![] bcast_S_S850000 : (⟨S_, .i32⟩ : BufTy).Contents (Elt F) → (⟨S850000, .i32⟩ : BufTy).Contents (Elt F)),
    binary main_v6 main_v58 main_v59 (addi : (⟨S850000, .i32⟩ : BufTy).Contents (Elt F) → (⟨S850000, .i32⟩ : BufTy).Contents (Elt F) → (⟨S850000, .i32⟩ : BufTy).Contents (Elt F)),
    ternary main_v57 main_v59 main_v6 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v60 main_v61 (broadcastInDim S850000x1 ![0] bcast_S850000_S850000x1_0 : (⟨S850000, .i32⟩ : BufTy).Contents (Elt F) → (⟨S850000x1, .i32⟩ : BufTy).Contents (Elt F)),
    binary main_v14 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v55 main_v62 main_v63 (mulf : (⟨S850000, .f32⟩ : BufTy).Contents (Elt F) → (⟨S850000, .f32⟩ : BufTy).Contents (Elt F) → (⟨S850000, .f32⟩ : BufTy).Contents (Elt F)),
    nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v3 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v3 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v3 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v48 main_v69 main_v70 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v63 main_v71 (broadcastInDim S850000x1 ![0] bcast_S850000_S850000x1_0 : (⟨S850000, .f32⟩ : BufTy).Contents (Elt F) → (⟨S850000x1, .f32⟩ : BufTy).Contents (Elt F)),
    unary main_v71 main_v72 (broadcastInDim S850000x128 ![0, 1] bcast_S850000x1_S850000x128_0_1 : (⟨S850000x1, .f32⟩ : BufTy).Contents (Elt F) → (⟨S850000x128, .f32⟩ : BufTy).Contents (Elt F)),
    binary main_v70 main_v72 main_v73 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v74 (broadcastInDim S50000x128 ![] bcast_S_S50000x128 : (⟨S_, .f32⟩ : BufTy).Contents (Elt F) → (⟨S50000x128, .f32⟩ : BufTy).Contents (Elt F)),
    unary main_v6 main_v75 (broadcastInDim S850000x1 ![0] bcast_S850000_S850000x1_0 : (⟨S850000, .i32⟩ : BufTy).Contents (Elt F) → (⟨S850000x1, .i32⟩ : BufTy).Contents (Elt F)),
    ternary main_v74 main_v75 main_v73 main_v76 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)) ]

/-- The second clamp at zero. -/
abbrev opsR2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v79) (TRef.of (T := ⟨S50000x128, .f32⟩) main_call2_v0) (TRef.of (T := ⟨S50000x128, .f32⟩) main_v80) maximumf ]

theorem ops_split : (ops : List (HloOp τ sig (Elt F))) = opsA ++ opsW ++ opsB ++ opsR1 ++ opsC ++ opsR2 := rfl

/-- The contents after two stretches in a row. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ### The first stretch -/

theorem A_v3 (Vv : Valuation τ sig (Elt Ideal)) : after (opsA (F := Ideal)) Vv (Proc.devRef .tc main_v3) = srcOf facts (Vv (Proc.devRef .tc main_arg1)) := by
  dsimp only [opsA]; after_results <;> rfl
theorem A_v6 (Vv : Valuation τ sig (Elt Ideal)) : after (opsA (F := Ideal)) Vv (Proc.devRef .tc main_v6) = dstOf facts (Vv (Proc.devRef .tc main_arg1)) := by
  dsimp only [opsA]; after_results <;> rfl
theorem A_v12 (Vv : Valuation τ sig (Elt Ideal)) : after (opsA (F := Ideal)) Vv (Proc.devRef .tc main_v12)
    = cmpf (F := Ideal) .ogt (degOf facts (dstOf facts (Vv (Proc.devRef .tc main_arg1)))) (zerosN facts) := by
  dsimp only [opsA]; after_results <;> rfl
theorem A_v13 (Vv : Valuation τ sig (Elt Ideal)) : after (opsA (F := Ideal)) Vv (Proc.devRef .tc main_v13)
    = Host.rsqrt (F := Ideal) (degOf facts (dstOf facts (Vv (Proc.devRef .tc main_arg1)))) := by
  dsimp only [opsA]; after_results <;> rfl
theorem A_cst_2 (Vv : Valuation τ sig (Elt Ideal)) : after (opsA (F := Ideal)) Vv (Proc.devRef .tc main_cst_2)
    = constant (F := Ideal) S_ .f32 0x00000000#32 := by
  dsimp only [opsA]; after_results <;> rfl
theorem A_arg0 (Vv : Valuation τ sig (Elt Ideal)) : after (opsA (F := Ideal)) Vv (Proc.devRef .tc main_arg0) = Vv (Proc.devRef .tc main_arg0) := by
  dsimp only [opsA]; after_results
theorem A_arg2 (Vv : Valuation τ sig (Elt Ideal)) : after (opsA (F := Ideal)) Vv (Proc.devRef .tc main_arg2) = Vv (Proc.devRef .tc main_arg2) := by
  dsimp only [opsA]; after_results
theorem A_arg3 (Vv : Valuation τ sig (Elt Ideal)) : after (opsA (F := Ideal)) Vv (Proc.devRef .tc main_arg3) = Vv (Proc.devRef .tc main_arg3) := by
  dsimp only [opsA]; after_results
theorem A_arg4 (Vv : Valuation τ sig (Elt Ideal)) : after (opsA (F := Ideal)) Vv (Proc.devRef .tc main_arg4) = Vv (Proc.devRef .tc main_arg4) := by
  dsimp only [opsA]; after_results
theorem A_arg5 (Vv : Valuation τ sig (Elt Ideal)) : after (opsA (F := Ideal)) Vv (Proc.devRef .tc main_arg5) = Vv (Proc.devRef .tc main_arg5) := by
  dsimp only [opsA]; after_results

/-! ### The select -/

theorem W_v14 (Vv : Valuation τ sig (Elt Ideal)) : after (opsW (F := Ideal)) Vv (Proc.devRef .tc main_v14)
    = select (Vv (Proc.devRef .tc main_v12)) (Vv (Proc.devRef .tc main_v13)) (broadcastInDim S50000 ![] bcast_S_S50000 (Vv (Proc.devRef .tc main_cst_2))) := by
  dsimp only [opsW]; after_results <;> rfl
theorem W_v3 (Vv : Valuation τ sig (Elt Ideal)) : after (opsW (F := Ideal)) Vv (Proc.devRef .tc main_v3) = Vv (Proc.devRef .tc main_v3) := by
  dsimp only [opsW]; after_results
theorem W_v6 (Vv : Valuation τ sig (Elt Ideal)) : after (opsW (F := Ideal)) Vv (Proc.devRef .tc main_v6) = Vv (Proc.devRef .tc main_v6) := by
  dsimp only [opsW]; after_results
theorem W_arg0 (Vv : Valuation τ sig (Elt Ideal)) : after (opsW (F := Ideal)) Vv (Proc.devRef .tc main_arg0) = Vv (Proc.devRef .tc main_arg0) := by
  dsimp only [opsW]; after_results
theorem W_arg2 (Vv : Valuation τ sig (Elt Ideal)) : after (opsW (F := Ideal)) Vv (Proc.devRef .tc main_arg2) = Vv (Proc.devRef .tc main_arg2) := by
  dsimp only [opsW]; after_results
theorem W_arg3 (Vv : Valuation τ sig (Elt Ideal)) : after (opsW (F := Ideal)) Vv (Proc.devRef .tc main_arg3) = Vv (Proc.devRef .tc main_arg3) := by
  dsimp only [opsW]; after_results
theorem W_arg4 (Vv : Valuation τ sig (Elt Ideal)) : after (opsW (F := Ideal)) Vv (Proc.devRef .tc main_arg4) = Vv (Proc.devRef .tc main_arg4) := by
  dsimp only [opsW]; after_results
theorem W_arg5 (Vv : Valuation τ sig (Elt Ideal)) : after (opsW (F := Ideal)) Vv (Proc.devRef .tc main_arg5) = Vv (Proc.devRef .tc main_arg5) := by
  dsimp only [opsW]; after_results

/-! ### The first layer -/

set_option maxHeartbeats 8000000 in
theorem B_v46 (Vv : Valuation τ sig (Elt Ideal)) : after (opsB (F := Ideal)) Vv (Proc.devRef .tc main_v46)
    = layerR facts (Vv (Proc.devRef .tc main_v3)) (Vv (Proc.devRef .tc main_v6)) (Vv (Proc.devRef .tc main_v14)) (Vv (Proc.devRef .tc main_arg0)) (Vv (Proc.devRef .tc main_arg2)) (Vv (Proc.devRef .tc main_arg3)) := by
  dsimp only [opsB]; after_results_simp <;> rfl
theorem B_v3 (Vv : Valuation τ sig (Elt Ideal)) : after (opsB (F := Ideal)) Vv (Proc.devRef .tc main_v3) = Vv (Proc.devRef .tc main_v3) := by
  dsimp only [opsB]; after_results
theorem B_v6 (Vv : Valuation τ sig (Elt Ideal)) : after (opsB (F := Ideal)) Vv (Proc.devRef .tc main_v6) = Vv (Proc.devRef .tc main_v6) := by
  dsimp only [opsB]; after_results
theorem B_v14 (Vv : Valuation τ sig (Elt Ideal)) : after (opsB (F := Ideal)) Vv (Proc.devRef .tc main_v14) = Vv (Proc.devRef .tc main_v14) := by
  dsimp only [opsB]; after_results
theorem B_arg4 (Vv : Valuation τ sig (Elt Ideal)) : after (opsB (F := Ideal)) Vv (Proc.devRef .tc main_arg4) = Vv (Proc.devRef .tc main_arg4) := by
  dsimp only [opsB]; after_results
theorem B_arg5 (Vv : Valuation τ sig (Elt Ideal)) : after (opsB (F := Ideal)) Vv (Proc.devRef .tc main_arg5) = Vv (Proc.devRef .tc main_arg5) := by
  dsimp only [opsB]; after_results

/-! ### The first clamp -/

theorem R1_v47 (Vv : Valuation τ sig (Elt Ideal)) : after (opsR1 (F := Ideal)) Vv (Proc.devRef .tc main_v47)
    = relu facts (Vv (Proc.devRef .tc main_v46)) := by
  dsimp only [opsR1]; after_results <;> rfl
theorem R1_v3 (Vv : Valuation τ sig (Elt Ideal)) : after (opsR1 (F := Ideal)) Vv (Proc.devRef .tc main_v3) = Vv (Proc.devRef .tc main_v3) := by
  dsimp only [opsR1]; after_results
theorem R1_v6 (Vv : Valuation τ sig (Elt Ideal)) : after (opsR1 (F := Ideal)) Vv (Proc.devRef .tc main_v6) = Vv (Proc.devRef .tc main_v6) := by
  dsimp only [opsR1]; after_results
theorem R1_v14 (Vv : Valuation τ sig (Elt Ideal)) : after (opsR1 (F := Ideal)) Vv (Proc.devRef .tc main_v14) = Vv (Proc.devRef .tc main_v14) := by
  dsimp only [opsR1]; after_results
theorem R1_arg4 (Vv : Valuation τ sig (Elt Ideal)) : after (opsR1 (F := Ideal)) Vv (Proc.devRef .tc main_arg4) = Vv (Proc.devRef .tc main_arg4) := by
  dsimp only [opsR1]; after_results
theorem R1_arg5 (Vv : Valuation τ sig (Elt Ideal)) : after (opsR1 (F := Ideal)) Vv (Proc.devRef .tc main_arg5) = Vv (Proc.devRef .tc main_arg5) := by
  dsimp only [opsR1]; after_results

/-! ### The second layer and its clamp -/

set_option maxHeartbeats 8000000 in
theorem C_v79 (Vv : Valuation τ sig (Elt Ideal)) : after (opsC (F := Ideal)) Vv (Proc.devRef .tc main_v79)
    = layerR facts (Vv (Proc.devRef .tc main_v3)) (Vv (Proc.devRef .tc main_v6)) (Vv (Proc.devRef .tc main_v14)) (Vv (Proc.devRef .tc main_v47)) (Vv (Proc.devRef .tc main_arg4)) (Vv (Proc.devRef .tc main_arg5)) := by
  dsimp only [opsC]; after_results_simp <;> rfl
theorem R2_v80 (Vv : Valuation τ sig (Elt Ideal)) : after (opsR2 (F := Ideal)) Vv (Proc.devRef .tc main_v80)
    = relu facts (Vv (Proc.devRef .tc main_v79)) := by
  dsimp only [opsR2]; after_results <;> rfl

/-- The inverse square-root degree after the select. -/
theorem AW_v14 (Vv : Valuation τ sig (Elt Ideal)) : after (opsW (F := Ideal)) (after (opsA (F := Ideal)) Vv) (Proc.devRef .tc main_v14)
    = disOf facts (dstOf facts (Vv (Proc.devRef .tc main_arg1))) := by
  rw [W_v14, A_v12, A_v13, A_cst_2]
  rfl

/-- The whole line at the result buffer. -/
theorem result_eq (Vv : Valuation τ sig (Elt Ideal)) : after (ops (F := Ideal)) Vv (Proc.devRef .tc main_v80)
    = refOut facts (Vv (Proc.devRef .tc main_arg0)) (Vv (Proc.devRef .tc main_arg1)) (Vv (Proc.devRef .tc main_arg2)) (Vv (Proc.devRef .tc main_arg3))
        (Vv (Proc.devRef .tc main_arg4)) (Vv (Proc.devRef .tc main_arg5)) := by
  rw [ops_split, after_append, after_append, after_append, after_append, after_append]
  rw [R2_v80, C_v79, R1_v47, R1_v3, R1_v6, R1_v14, R1_arg4, R1_arg5, B_v46, B_v3, B_v6, B_v14, B_arg4, B_arg5,
    AW_v14, W_v3, W_v6, W_arg0, W_arg2, W_arg3, W_arg4, W_arg5, A_v3, A_v6, A_arg0, A_arg2, A_arg3, A_arg4, A_arg5]
  rfl

set_option maxRecDepth 8192 in
set_option maxHeartbeats 42000000 in
/-- At the extended reals, from any memory with zero counters: every weakly fair execution of the reference
    terminates, its result at `refOut` of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80)
        = refOut facts (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v80).trans ((result_eq _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefVal

end
-- ==== Proof.Law.lean ====
/-
  The algebra of the bridge, on the extended reals alone.

  A graph-convolution layer sums, over the edges `e` that land on node `n`, the source row `h e` scaled by
  `a e · d`, where `a e` is the inverse square-root degree of the edge's source and `d` that of node `n` itself.
  One program scales every message by `a e · d` before summing; the other scales by `a e` only, sums, and multiplies
  the sum by `d` afterwards.  The two agree because `d` is a NON-NEGATIVE FINITE number: multiplication by such a
  number distributes over every sum of extended reals (it fails only for a negative or an infinite factor, where
  `⊤ + ⊥ = ⊥` breaks the symmetry).  And `d` is such a number whatever the degree is: it is
  `if 0 < x then 1/√x else 0` with `1/√⊤ = 0`.
-/
import Idealize.ShloMosaic.PureOps.Ideal
import Idealize.ShloMosaic.PureOps.Ideal.Laws

noncomputable section

namespace Cert.Gcn

open Idealize.ShloMosaic

/-- A non-negative finite factor distributes over a finite sum of extended reals. -/
theorem mul_sum_of_nonneg_ne_top {ι : Type} (s : Finset ι) (f : ι → EReal) {d : EReal} (h0 : 0 ≤ d) (ht : d ≠ ⊤) :
    d * ∑ i ∈ s, f i = ∑ i ∈ s, d * f i := by
  classical
  induction s using Finset.induction_on with
  | empty => simp
  | insert a s ha ih =>
    rw [Finset.sum_insert ha, Finset.sum_insert ha, EReal.left_distrib_of_nonneg_of_ne_top h0 ht, ih]

/-- The inverse square-root degree as both programs compute it: `1/√x` where `0 < x`, else `0`. -/
def invSqrtDeg (x z : EReal) : EReal := Scalar.select (Ideal.cmp .ogt x z) (Ideal.rsqrt x) z

theorem rsqrt_nonneg_of_pos {x : EReal} (h : 0 < x) : 0 ≤ Ideal.rsqrt x ∧ Ideal.rsqrt x ≠ ⊤ := by
  induction x using EReal.rec with
  | bot => exact absurd h (by simp)
  | top => exact ⟨le_of_eq (by rfl), by show (0 : EReal) ≠ ⊤; exact EReal.zero_ne_top⟩
  | coe r =>
    have hr : 0 < r := by exact_mod_cast h
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    rw [e]
    exact ⟨by exact_mod_cast inv_nonneg.2 (Real.sqrt_nonneg r), EReal.coe_ne_top _⟩

/-- It is non-negative, whatever the degree. -/
theorem invSqrtDeg_nonneg (x : EReal) : 0 ≤ invSqrtDeg x 0 := by
  unfold invSqrtDeg Scalar.select
  split
  · rename_i h
    have hx : 0 < x := by
      by_contra hn
      simp [Ideal.cmp, hn] at h
    exact (rsqrt_nonneg_of_pos hx).1
  · exact le_refl _

/-- It is finite, whatever the degree. -/
theorem invSqrtDeg_ne_top (x : EReal) : invSqrtDeg x 0 ≠ ⊤ := by
  unfold invSqrtDeg Scalar.select
  split
  · rename_i h
    have hx : 0 < x := by
      by_contra hn
      simp [Ideal.cmp, hn] at h
    exact (rsqrt_nonneg_of_pos hx).2
  · simp

/-- THE LAW.  Over the edges `s` that land on one node, whose own scale is `d` (`dd e = d` on `s`): scaling each
    message by `a e · dd e` and summing is scaling by `a e`, summing, and multiplying the sum by `d`. -/
theorem sum_scaled_eq {ι : Type} (s : Finset ι) (h a dd : ι → EReal) {d : EReal} (h0 : 0 ≤ d) (ht : d ≠ ⊤)
    (hd : ∀ e ∈ s, dd e = d) :
    ∑ e ∈ s, h e * (a e * dd e) = d * ∑ e ∈ s, h e * a e := by
  rw [mul_sum_of_nonneg_ne_top s _ h0 ht]
  refine Finset.sum_congr rfl fun e he => ?_
  rw [hd e he, ← mul_assoc, mul_comm d]

end Cert.Gcn

end
-- ==== Proof.Bridge.lean ====
/-
  The two programs compute one function.

  Fix a node `n` and a feature column `j`.  The scatter-add onto `(n, j)` sums over the same set of updates in both
  programs: the edges `e` whose destination, read as a signed integer, is exactly `n` (an edge whose destination is
  out of range lands nowhere in either).  For such an edge the gather of the scale by destination reads node `n`
  itself (a destination in range is not wrapped and not clamped), so the reference's message
  `h[src e] · (dis[src e] · dis[dst e])` is `h[src e] · dis[src e] · dis n`, the kernel's pre-scaled row times the
  node's own scale.  That scale is a non-negative finite number whatever the degree, so it moves out of the sum
  (`Cert.Gcn.sum_scaled_eq`).  The products `X·W` agree term by term, the bias and the clamp at zero are the same
  on both sides.  Hence one layer agrees (`layer_eq`), and the second layer is fed equal inputs.
-/
import proofs.«130294_j67164698575202_2_alg».proof.Proof.Spec
import proofs.«130294_j67164698575202_2_alg».proof.Proof.Law
import proofs.«130294_j67164698575202_2_alg».proof.Proof.LibLayout
import proofs.«130294_j67164698575202_2_alg».proof.Proof.LibRowsIndex
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx

variable (hf : ShapeFacts)

/-! ## The layout operations at an index -/

/-- A flat vector as a column, at `(e, 0)`. -/
theorem col_apply {α : Type} (v : SE.Idx → α) (e : Fin 850000) :
    broadcastInDim SE1 ![0] hf.bE1 v (ix2 e (0 : Fin 1)) = v (ix1 e) :=
  broadcastInDim_apply _ _ v _ (ix1 e) fun a => by
    obtain rfl : a = 0 := Subsingleton.elim _ _
    rfl

/-- A column broadcast along the features, at `(e, j)`. -/
theorem colD_apply {α : Type} (v : SE1.Idx → α) (e : Fin 850000) (j : Fin 128) :
    broadcastInDim SED ![0, 1] hf.bED v (ix2 e j) = v (ix2 e (0 : Fin 1)) :=
  broadcastInDim_apply _ _ v _ (ix2 e (0 : Fin 1)) fun a => by
    match a with
    | ⟨0, _⟩ => rfl
    | ⟨1, _⟩ => rfl

/-- The bias as a row broadcast over the nodes, at `(n, j)`. -/
theorem biasR_apply {α : Type} (b : SD.Idx → α) (n : Fin 50000) (j : Fin 128) :
    broadcastInDim SND ![0, 1] hf.b1DND (broadcastInDim S1D ![1] hf.bD1D b) (ix2 n j) = b (ix1 j) := by
  rw [broadcastInDim_apply _ _ _ _ (ix2 (0 : Fin 1) j) fun a => by
    match a with
    | ⟨0, _⟩ => rfl
    | ⟨1, _⟩ => rfl]
  exact broadcastInDim_apply _ _ b _ (ix1 j) fun a => by
    obtain rfl : a = 0 := Subsingleton.elim _ _
    rfl

/-- A scalar broadcast reads the scalar. -/
theorem splat_apply {α : Type} {t : Shape} (h : S0.BroadcastsInDim t (![] : Fin 0 → Fin t.rank)) (x : S0.Idx → α) (i : t.Idx) :
    broadcastInDim t ![] h x i = x ix0 :=
  broadcastInDim_apply _ _ x _ ix0 fun a => a.elim0

theorem zerosND_apply (i : SND.Idx) : zerosND hf i = 0 := by
  unfold zerosND
  rw [splat_apply, constant_apply, Ideal.ofBits_zero_f32]

theorem zerosN_apply (i : SN.Idx) : zerosN hf i = 0 := by
  unfold zerosN
  rw [splat_apply, constant_apply, Ideal.ofBits_zero_f32]

/-! ## The index columns -/

/-- The raw column of scatter indices at `(e, 0)`. -/
theorem rawIdx_apply (v : IVec SE 32) (e : Fin 850000) : rawIdx hf v (ix2 e (0 : Fin 1)) = v (ix1 e) := by
  unfold rawIdx
  exact col_apply hf v e

/-- A node index that is not negative is not wrapped: the gather's column holds it as it is. -/
theorem normIdx_of_nonneg (v : IVec SE 32) (e : Fin 850000) (h : 0 ≤ (v (ix1 e)).toInt) :
    normIdx hf v (ix2 e (0 : Fin 1)) = v (ix1 e) := by
  unfold normIdx
  rw [col_apply hf, select_apply]
  have hlt : ¬ ((v (ix1 e)).toInt < (0#32 : BitVec 32).toInt) := by
    rw [BitVec.toInt_zero]; omega
  have hc : cmpi CmpIPredicate.slt v (broadcastInDim SE ![] hf.b0E (constantI S0 32 0#32)) (ix1 e) = 0#1 := by
    show BitVec.ofBool ((v (ix1 e)).slt (broadcastInDim SE ![] hf.b0E (constantI S0 32 0#32) (ix1 e))) = 0#1
    rw [splat_apply]
    show BitVec.ofBool (decide ((v (ix1 e)).toInt < (0#32 : BitVec 32).toInt)) = BitVec.ofBool false
    exact congrArg BitVec.ofBool (decide_eq_false hlt)
  rw [hc]
  unfold Scalar.select
  rw [if_neg (by decide)]

/-- An edge whose scatter index lands on row `n` gathers, by that same index, row `n`. -/
theorem gRow_of_land (v : IVec SE 32) (e : Fin 850000) (j' : Fin 128) (i : SND.Idx)
    (h : (sd2 hf).resultIdx? (ix2 e j') (rawIdx hf v) = some i) :
    (gRow 50000 (by decide) (normIdx hf v) e).val = (i 0).val := by
  have hl0 : (rawIdx hf v (ix2 e (0 : Fin 1))).toInt = ((i 0).val : Int) :=
    scatter_rows_land hf.sct2 (rawIdx hf v) (ix2 e j') i h
  rw [rawIdx_apply] at hl0
  have hi : (i 0).val < 50000 := (i 0).isLt
  show min (normIdx hf v (ix2 e (0 : Fin 1))).toInt.toNat (50000 - 1) = (i 0).val
  rw [normIdx_of_nonneg hf v e (by omega), hl0]
  omega

/-! ## The scale, the product and the scatter-add at an index -/

/-- The scale at node `n`: `1/√deg` where the degree is positive, else `0`. -/
theorem sel_eq (dg : FVec Ideal SN .f32) (n : Fin 50000) :
    Scalar.select (FloatOps.cmpf (F := Ideal) (φ := .f32) .ogt (dg (ix1 n)) 0) (Host.rsqrt (F := Ideal) dg (ix1 n)) (0 : EReal)
      = invSqrtDeg (dg (ix1 n)) 0 := rfl

theorem disOf_apply (dst : IVec SE 32) (n : Fin 50000) :
    disOf hf dst (ix1 n) = invSqrtDeg (degOf hf dst (ix1 n)) 0 := by
  unfold disOf
  rw [select_apply, cmpf_apply, zerosN_apply hf]
  exact sel_eq (degOf hf dst) n

theorem dis_nonneg (dst : IVec SE 32) (n : Fin 50000) : 0 ≤ disOf hf dst (ix1 n) := by
  rw [disOf_apply]; exact invSqrtDeg_nonneg _

theorem dis_ne_top (dst : IVec SE 32) (n : Fin 50000) : disOf hf dst (ix1 n) ≠ ⊤ := by
  rw [disOf_apply]; exact invSqrtDeg_ne_top _

/-- The reference's product at `(r, j)`. -/
theorem dot_apply (X : FVec Ideal SND .f32) (W : FVec Ideal SDD .f32) (r : Fin 50000) (j : Fin 128) :
    Host.dotGeneral (F := Ideal) (dd hf) none X W (ix2 r j) = ∑ k : Fin 128, X (ix2 r k) * W (ix2 k j) := by
  show FloatOps.dotGeneral (DotDims.plain 50000 128 128) none .single X W (ix2 r j) = _
  rw [Ideal.dotGeneral_apply]
  exact plain_sum X W r j

/-- At the extended reals the host's accumulating scatter is the exact sum: each operand element plus the updates
    that land on it. -/
theorem scatterAdd_apply {s si su : Shape} (d : ScatterDims s si su) {w : Nat} (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := by
  show Ideal.hostScatterAdd d x idx upd i = _
  unfold Ideal.hostScatterAdd
  refine congrArg (fun t => x i + t) (Finset.sum_congr ?_ fun _ _ => rfl)
  ext j
  simp only [Finset.mem_filter, Finset.mem_univ, true_and]

/-- The updates `(e, ·)` that the scatter by destination lands on result index `i`. -/
def landing (dst : IVec SE 32) (i : SND.Idx) : Finset SED.Idx :=
  Finset.univ.filter (fun J => (sd2 hf).resultIdx? J (rawIdx hf dst) = some i)

/-- The scatter-add by destination onto zeros at `i`: the sum of the updates that land on `i`. -/
theorem scat_land (dst : IVec SE 32) (upd : FVec Ideal SED .f32) (i : SND.Idx) :
    Host.scatterAdd (F := Ideal) (sd2 hf) (zerosND hf) (rawIdx hf dst) upd i = ∑ J ∈ landing hf dst i, upd J := by
  unfold landing
  rw [scatterAdd_apply, zerosND_apply hf, zero_add]

/-- The edge of an update. -/
def erow (J : SED.Idx) : Fin 850000 := J 0
/-- The feature column of an update. -/
def ecol (J : SED.Idx) : Fin 128 := J 1
/-- The node whose row the gather by source reads for an update. -/
def srcRow (src : IVec SE 32) (J : SED.Idx) : Fin 50000 := gRow 50000 (by decide) (normIdx hf src) (erow J)
/-- The node whose scale the gather by destination reads for an update. -/
def dstRow (dst : IVec SE 32) (J : SED.Idx) : Fin 50000 := gRow 50000 (by decide) (normIdx hf dst) (erow J)

/-- An update that lands on row `n` reads, by destination, node `n`. -/
theorem dstRow_of_landing (dst : IVec SE 32) (i : SND.Idx) (J : SED.Idx) (hJ : J ∈ landing hf dst i) :
    (dstRow hf dst J).val = (i 0).val := by
  obtain ⟨e, j', rfl⟩ : ∃ (e : Fin 850000) (j' : Fin 128), J = ix2 e j' := ⟨J 0, J 1, eq_ix2 J⟩
  exact gRow_of_land hf dst e j' i (Finset.mem_filter.mp hJ).2

/-- The reference's message at an update: the source's product row times both scales. -/
theorem msgR_apply (src dst : IVec SE 32) (dis : FVec Ideal SN .f32) (X : FVec Ideal SND .f32) (W : FVec Ideal SDD .f32) (J : SED.Idx) :
    mulf (Host.gather (gd2 hf) (Host.dotGeneral (F := Ideal) (dd hf) none X W) (normIdx hf src))
        (broadcastInDim SED ![0, 1] hf.bED (broadcastInDim SE1 ![0] hf.bE1
          (mulf (Host.gather (gd1 hf) dis (normIdx hf src)) (Host.gather (gd1 hf) dis (normIdx hf dst))))) J
      = (∑ k : Fin 128, X (ix2 (srcRow hf src J) k) * W (ix2 k (ecol J)))
          * (dis (ix1 (srcRow hf src J)) * dis (ix1 (dstRow hf dst J))) := by
  obtain ⟨e, j', rfl⟩ : ∃ (e : Fin 850000) (j' : Fin 128), J = ix2 e j' := ⟨J 0, J 1, eq_ix2 J⟩
  rw [mulf_apply, gather_rows_apply (by decide), colD_apply hf, col_apply hf, mulf_apply, gather_flat_apply (by decide),
    gather_flat_apply (by decide), dot_apply hf]
  show _ = (∑ k : Fin 128, X (ix2 (gRow 50000 (by decide) (normIdx hf src) e) k) * W (ix2 k j'))
      * (dis (ix1 (gRow 50000 (by decide) (normIdx hf src) e)) * dis (ix1 (gRow 50000 (by decide) (normIdx hf dst) e)))
  rfl

/-- The kernel's message at an update: the source's pre-scaled product row. -/
theorem msgK_apply (src : IVec SE 32) (dis : FVec Ideal SN .f32) (X : FVec Ideal SND .f32) (W : FVec Ideal SDD .f32) (J : SED.Idx) :
    Host.gather (gd2 hf) (G0 X W (shapeCast SN1 dis hf.scN1)) (normIdx hf src) J
      = (∑ k : Fin 128, X (ix2 (srcRow hf src J) k) * W (ix2 k (ecol J))) * dis (ix1 (srcRow hf src J)) := by
  obtain ⟨e, j', rfl⟩ : ∃ (e : Fin 850000) (j' : Fin 128), J = ix2 e j' := ⟨J 0, J 1, eq_ix2 J⟩
  rw [gather_rows_apply (by decide)]
  show (∑ k : Fin 128, X (ix2 (gRow 50000 (by decide) (normIdx hf src) e) k) * W (ix2 k j'))
      * shapeCast SN1 dis hf.scN1 (ix2 (gRow 50000 (by decide) (normIdx hf src) e) (0 : Fin 1))
    = (∑ k : Fin 128, X (ix2 (gRow 50000 (by decide) (normIdx hf src) e) k) * W (ix2 k j'))
      * dis (ix1 (gRow 50000 (by decide) (normIdx hf src) e))
  rw [shapeCast_a_a1_apply]

/-! ## One layer -/

/-- The reference's clamped layer at `(n, j)`. -/
theorem refLayer_apply (src dst : IVec SE 32) (dis : FVec Ideal SN .f32) (X : FVec Ideal SND .f32) (W : FVec Ideal SDD .f32)
    (b : FVec Ideal SD .f32) (n : Fin 50000) (j : Fin 128) :
    relu hf (layerR hf src dst dis X W b) (ix2 n j)
      = max ((∑ J ∈ landing hf dst (ix2 n j),
            (∑ k : Fin 128, X (ix2 (srcRow hf src J) k) * W (ix2 k (ecol J)))
              * (dis (ix1 (srcRow hf src J)) * dis (ix1 (dstRow hf dst J)))) + b (ix1 j)) 0 := by
  unfold relu layerR
  rw [maximumf_apply, zerosND_apply hf, addf_apply, biasR_apply hf, scat_land hf,
    Finset.sum_congr rfl (fun J _ => msgR_apply hf src dst dis X W J)]

/-- The kernel's three steps at `(n, j)`. -/
theorem kerLayer_apply (src dst : IVec SE 32) (dis : FVec Ideal SN .f32) (X : FVec Ideal SND .f32) (W : FVec Ideal SDD .f32)
    (b : FVec Ideal SD .f32) (n : Fin 50000) (j : Fin 128) :
    G2 (aggK hf src dst (G0 X W (shapeCast SN1 dis hf.scN1))) (shapeCast SN1 dis hf.scN1) (shapeCast S1D b hf.scD1D) (ix2 n j)
      = max (dis (ix1 n) * (∑ J ∈ landing hf dst (ix2 n j),
            (∑ k : Fin 128, X (ix2 (srcRow hf src J) k) * W (ix2 k (ecol J))) * dis (ix1 (srcRow hf src J))) + b (ix1 j)) 0 := by
  show max (shapeCast SN1 dis hf.scN1 (ix2 n (0 : Fin 1)) * aggK hf src dst (G0 X W (shapeCast SN1 dis hf.scN1)) (ix2 n j)
      + shapeCast S1D b hf.scD1D (ix2 (0 : Fin 1) j)) 0 = _
  unfold aggK
  rw [shapeCast_a_a1_apply, shapeCast_a_1a_apply, scat_land hf,
    Finset.sum_congr rfl (fun J _ => msgK_apply hf src dis X W J)]

/-- A reference layer, clamped, is the kernel's three steps: pre-scale the product, aggregate, close. -/
theorem layer_eq (src dst : IVec SE 32) (X : FVec Ideal SND .f32) (W : FVec Ideal SDD .f32) (b : FVec Ideal SD .f32) :
    relu hf (layerR hf src dst (disOf hf dst) X W b)
      = G2 (aggK hf src dst (G0 X W (shapeCast SN1 (disOf hf dst) hf.scN1))) (shapeCast SN1 (disOf hf dst) hf.scN1)
          (shapeCast S1D b hf.scD1D) := by
  funext i
  obtain ⟨n, j, rfl⟩ : ∃ (n : Fin 50000) (j : Fin 128), i = ix2 n j := ⟨i 0, i 1, eq_ix2 i⟩
  rw [refLayer_apply hf, kerLayer_apply hf]
  have hsum : (∑ J ∈ landing hf dst (ix2 n j),
        (∑ k : Fin 128, X (ix2 (srcRow hf src J) k) * W (ix2 k (ecol J)))
          * (disOf hf dst (ix1 (srcRow hf src J)) * disOf hf dst (ix1 (dstRow hf dst J))))
      = disOf hf dst (ix1 n) * ∑ J ∈ landing hf dst (ix2 n j),
        (∑ k : Fin 128, X (ix2 (srcRow hf src J) k) * W (ix2 k (ecol J))) * disOf hf dst (ix1 (srcRow hf src J)) :=
    sum_scaled_eq (landing hf dst (ix2 n j))
      (fun J => ∑ k : Fin 128, X (ix2 (srcRow hf src J) k) * W (ix2 k (ecol J)))
      (fun J => disOf hf dst (ix1 (srcRow hf src J))) (fun J => disOf hf dst (ix1 (dstRow hf dst J)))
      (dis_nonneg hf dst n) (dis_ne_top hf dst n)
      (fun J hJ => congrArg (fun r : Fin 50000 => disOf hf dst (ix1 r)) (Fin.ext (dstRow_of_landing hf dst (ix2 n j) J hJ)))
  rw [hsum]

/-! ## The two programs -/

/-- The kernel program and the reference compute the same array from the same arguments. -/
theorem ker_eq_ref (x : FVec Ideal SND .f32) (ei : IVec S2E0 32) (W1 : FVec Ideal SDD .f32) (b1 : FVec Ideal SD .f32)
    (W2 : FVec Ideal SDD .f32) (b2 : FVec Ideal SD .f32) :
    kerOut hf x ei W1 b1 W2 b2 = refOut hf x ei W1 b1 W2 b2 := by
  unfold kerOut refOut G1
  rw [← layer_eq hf, ← layer_eq hf]

end Cert.Gcn

end
-- ==== Proof.lean ====
/-
  A two-layer graph convolution, fused kernel against reference: `Cert.Claim`.

  Both programs take node features `x : [50000, 128]`, an edge list `edge_index : [2, 800000]` and two weight / bias
  pairs, append one self-loop per node, and compute, per layer,
      out(n, ·) = Σ_{edges e into n}  dis(src e) · dis(n) · (X·W)(src e, ·)  +  b,        dis = 1/√(in-degree),
  clamped at zero.  The reference multiplies every message by `dis(src e) · dis(dst e)` and scatter-adds.  The kernel
  program pre-scales row `n` of `X·W` by `dis n` inside its first pallas_call, gathers and scatter-adds the scaled rows
  on the host with no per-edge factor, and multiplies the aggregate's row `n` by `dis n` inside the next pallas_call
  (which also opens the second layer); a third pallas_call closes the second layer.

  At the extended reals the two are one function: an update that lands on row `n` has destination exactly `n`, and
  `dis n` is a non-negative finite number whatever the degree, so it distributes over the sum of the messages
  (Proof/Law.lean, Proof/Bridge.lean).  The matrix unit's bf16 narrowing is the identity there, and its product into a
  zero accumulator is the host's contraction.  Nothing in the argument needs the inputs finite.

  The frames of the two kernel programs are the generated ones; the reference's frame is its run with the result
  dropped.  The idealization rewrote nothing, so `preserves` is `True`.
-/
import proofs.«130294_j67164698575202_2_alg».proof.Defs
import proofs.«130294_j67164698575202_2_alg».proof.Proof.Gen.Kernel
import proofs.«130294_j67164698575202_2_alg».proof.Proof.Gen.Kernel.Frame
import proofs.«130294_j67164698575202_2_alg».proof.Proof.Gen.KernelIdeal
import proofs.«130294_j67164698575202_2_alg».proof.Proof.Gen.KernelIdeal.Frame
import proofs.«130294_j67164698575202_2_alg».proof.Proof.Gen.ReferenceIdeal
import proofs.«130294_j67164698575202_2_alg».proof.Proof.Gen.Pre_finite_inputs
import proofs.«130294_j67164698575202_2_alg».proof.Proof.KerRun
import proofs.«130294_j67164698575202_2_alg».proof.Proof.KerVal
import proofs.«130294_j67164698575202_2_alg».proof.Proof.RefRun
import proofs.«130294_j67164698575202_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefVal.run m ρ)

/-- From memories agreeing on the arguments both programs run, and both results are `kerOut` of the kernel's
    arguments: the kernel's by its run read through the three pallas_calls, the reference's by its run and the
    equality of the two functions. -/
theorem algebraic : Cert.algebraic_KernelIdeal_ReferenceIdeal := by
  intro m ρ m' ρ' _ hagree
  refine ⟨fun c => Cert.Gcn.kerOut Cert.Gcn.facts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KVal.W8_result m ρ c), (h c).2⟩)
      (Cert.KernelIdeal.KVal.run_named m ρ)
  · refine (θ_run Cert.ReferenceIdeal.defs _ _).mono (fun _ h c => ⟨(h c).1.trans ?_, (h c).2⟩)
      (Cert.ReferenceIdeal.RefVal.run m' ρ')
    rw [(hagree c).1, (hagree c).2.1, (hagree c).2.2.1, (hagree c).2.2.2.1, (hagree c).2.2.2.2.1, (hagree c).2.2.2.2.2]
    exact (Cert.Gcn.ker_eq_ref Cert.Gcn.facts _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
